-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x64x128 : Shape := ⟨4, ![4, 32, 64, 128]⟩
abbrev S128x256 : Shape := ⟨2, ![128, 256]⟩
abbrev S128 : Shape := ⟨1, ![128]⟩
abbrev S_ : Shape := ⟨0, ![]⟩

class Facts : Prop where
  bcast_S_S4x32x64x128 : S_.BroadcastsInDim S4x32x64x128 (![] : Fin 0 → Fin S4x32x64x128.rank)
  reducesTo_S4x32x64x128_S_d0_1_2_3 : S4x32x64x128.ReducesTo [0, 1, 2, 3] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S4x32x64x128 .f32) (main_arg1 : FVec F S128x256 .f32) (main_arg2 : FVec F S128 .f32) (main_arg3 : FVec F S128x256 .f32) (main_arg4 : FVec F S128 .f32) : IVec S_ 1 :=
  let main_v0 : FVec F S4x32x64x128 .f32 := Host.absf main_arg0
  let main_cst : FVec F S_ .f32 := constant S_ .f32 0x7F800000#32
  let main_v1 : FVec F S4x32x64x128 .f32 := broadcastInDim S4x32x64x128 ![] bcast_S_S4x32x64x128 main_cst
  let main_v2 : IVec S4x32x64x128 1 := cmpf .olt main_v0 main_v1
  let main_c : IVec S_ 1 := constantI S_ 1 1#1
  let main_v3 : IVec S_ 1 := (fun x v => Host.reduce IntOp.andi x v reducesTo_S4x32x64x128_S_d0_1_2_3 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg4 main_v13 main_v16
-- ==== Kernel.lean ====
abbrev S4x32x64x128 : Shape := ⟨4, ![4, 32, 64, 128]⟩
abbrev S128x256 : Shape := ⟨2, ![128, 256]⟩
abbrev S128 : Shape := ⟨1, ![128]⟩
abbrev S128x64x128 : Shape := ⟨3, ![128, 64, 128]⟩
abbrev S128x128 : Shape := ⟨2, ![128, 128]⟩
abbrev S8x64x128 : Shape := ⟨3, ![8, 64, 128]⟩
abbrev S512x128 : Shape := ⟨2, ![512, 128]⟩
abbrev S1x1x128 : Shape := ⟨3, ![1, 1, 128]⟩
abbrev S8x16x128 : Shape := ⟨3, ![8, 16, 128]⟩
abbrev S8x16x1x128 : Shape := ⟨4, ![8, 16, 1, 128]⟩
abbrev S8x1x64x128 : Shape := ⟨4, ![8, 1, 64, 128]⟩
abbrev S8x16x64x128 : Shape := ⟨4, ![8, 16, 64, 128]⟩
abbrev S1x128 : Shape := ⟨2, ![1, 128]⟩

abbrev nBuf : Space → Nat
  | .hbm => 17
  | .vmem => 11
  | .smem => 0
  | _ => 0

abbrev bufTy : (tb : Table) → Fin (tcTables nBuf tb) → BufTy
  | .hbm, ⟨0, _⟩ => ⟨S4x32x64x128, .f32⟩
  | .hbm, ⟨1, _⟩ => ⟨S128x256, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S128x64x128, .f32⟩
  | .hbm, ⟨6, _⟩ => ⟨S128x64x128, .bf16⟩
  | .hbm, ⟨7, _⟩ => ⟨S128x128, .f32⟩
  | .hbm, ⟨8, _⟩ => ⟨S128x128, .bf16⟩
  | .hbm, ⟨9, _⟩ => ⟨S128x128, .f32⟩
  | .hbm, ⟨10, _⟩ => ⟨S128x128, .bf16⟩
  | .hbm, ⟨11, _⟩ => ⟨S128x128, .f32⟩
  | .hbm, ⟨12, _⟩ => ⟨S128x128, .bf16⟩
  | .hbm, ⟨13, _⟩ => ⟨S128x128, .f32⟩
  | .hbm, ⟨14, _⟩ => ⟨S128x128, .bf16⟩
  | .hbm, ⟨15, _⟩ => ⟨S128x64x128, .f32⟩
  | .hbm, ⟨16, _⟩ => ⟨S4x32x64x128, .f32⟩
  | .local _ .vmem, ⟨0, _⟩ => ⟨S8x64x128, .bf16⟩
  | .local _ .vmem, ⟨1, _⟩ => ⟨S8x64x128, .bf16⟩
  | .local _ .vmem, ⟨2, _⟩ => ⟨S128x128, .bf16⟩
  | .local _ .vmem, ⟨3, _⟩ => ⟨S128x128, .bf16⟩
  | .local _ .vmem, ⟨4, _⟩ => ⟨S128, .f32⟩
  | .local _ .vmem, ⟨5, _⟩ => ⟨S128x128, .bf16⟩
  | .local _ .vmem, ⟨6, _⟩ => ⟨S128x128, .bf16⟩
  | .local _ .vmem, ⟨7, _⟩ => ⟨S128, .f32⟩
  | .local _ .vmem, ⟨8, _⟩ => ⟨S8x64x128, .f32⟩
  | .local _ .vmem, ⟨9, _⟩ => ⟨S8x64x128, .f32⟩
  | .local _ .vmem, ⟨10, _⟩ => ⟨S8x64x128, .f32⟩
  | _, _ => ⟨S4x32x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x64x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S4x32x64x128_S128x64x128 : S4x32x64x128.ShapeCasts S128x64x128
  bitsLt_bf16_f32 : FTy.bits .bf16 < FTy.bits .f32
  slices_S128x256_S128x128_0_0 : S128x256.Slices ![0, 0] S128x128
  slices_S128x256_S128x128_0_128 : S128x256.Slices ![0, 128] S128x128
  inb_S8x64x128_S8x64x128_0_0_0 : ∀ a, (![0, 0, 0] : Fin 3 → Nat) a + S8x64x128.size a ≤ S8x64x128.size a
  h_S8x64x128 : 0 < S8x64x128.numel
  shapeCasts_S8x64x128_S8x64x128 : S8x64x128.ShapeCasts S8x64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S8x64x128_S512x128 : S8x64x128.ShapeCasts S512x128
  transposes_S128x128_p1_0_S128x128 : S128x128.Transposes [1, 0] S128x128
  shapeCasts_S512x128_S8x64x128 : S512x128.ShapeCasts S8x64x128
  shapeCasts_S128_S1x1x128 : S128.ShapeCasts S1x1x128
  broadcasts_S1x1x128_S8x64x128 : S1x1x128.Broadcasts S8x64x128
  slices_S8x64x128_o0_0_0_S8x16x128 : S8x64x128.Slices ![0, 0, 0] S8x16x128
  shapeCasts_S8x16x128_S8x16x1x128 : S8x16x128.ShapeCasts S8x16x1x128
  shapeCasts_S8x64x128_S8x1x64x128 : S8x64x128.ShapeCasts S8x1x64x128
  broadcasts_S8x16x1x128_S8x16x64x128 : S8x16x1x128.Broadcasts S8x16x64x128
  broadcasts_S8x1x64x128_S8x16x64x128 : S8x1x64x128.Broadcasts S8x16x64x128
  reduces_S8x16x64x128_S8x16x128 : S8x16x64x128.Reduces [2] S8x16x128
  inb_S8x64x128_S8x16x128_0_0_0 : ∀ a, (![0, 0, 0] : Fin 3 → Nat) a + S8x16x128.size a ≤ S8x64x128.size a
  h_S8x16x128 : 0 < S8x16x128.numel
  shapeCasts_S8x16x128_S8x16x128 : S8x16x128.ShapeCasts S8x16x128
  slices_S8x64x128_o0_16_0_S8x16x128 : S8x64x128.Slices ![0, 16, 0] S8x16x128
  inb_S8x64x128_S8x16x128_0_16_0 : ∀ a, (![0, 16, 0] : Fin 3 → Nat) a + S8x16x128.size a ≤ S8x64x128.size a
  slices_S8x64x128_o0_32_0_S8x16x128 : S8x64x128.Slices ![0, 32, 0] S8x16x128
  inb_S8x64x128_S8x16x128_0_32_0 : ∀ a, (![0, 32, 0] : Fin 3 → Nat) a + S8x16x128.size a ≤ S8x64x128.size a
  slices_S8x64x128_o0_48_0_S8x16x128 : S8x64x128.Slices ![0, 48, 0] S8x16x128
  inb_S8x64x128_S8x16x128_0_48_0 : ∀ a, (![0, 48, 0] : Fin 3 → Nat) a + S8x16x128.size a ≤ S8x64x128.size a
  shapeCasts_S128_S1x128 : S128.ShapeCasts S1x128
  broadcasts_S1x128_S512x128 : S1x128.Broadcasts S512x128
  shapeCasts_S128x64x128_S4x32x64x128 : S128x64x128.ShapeCasts S4x32x64x128
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x128.size a ≤ S128x64x128.size a
  hwx0_0 : ∀ i : grid0.Coords, EltTy.bits .bf16 = 32 ∨ (Rect.block (s := S128x64x128) S8x64x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8x64x128.size a ≤ S128x64x128.size a
  hwx0_7 : ∀ i : grid0.Coords, EltTy.bits .f32 = 32 ∨ (Rect.block (s := S128x64x128) S8x64x128.size (cc0_transform_7 i) (hinb0_7 i)).WholeWords (EltTy.packing .f32)

variable [Facts₀]

def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v1) S8x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S8x64x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x32x64x128 : Shape := ⟨4, ![4, 32, 64, 128]⟩
abbrev S128x256 : Shape := ⟨2, ![128, 256]⟩
abbrev S128 : Shape := ⟨1, ![128]⟩
abbrev S128x128 : Shape := ⟨2, ![128, 128]⟩
abbrev S4x32x64x1x128 : Shape := ⟨5, ![4, 32, 64, 1, 128]⟩
abbrev S4x32x1x64x128 : Shape := ⟨5, ![4, 32, 1, 64, 128]⟩
abbrev S4x32x64x64x128 : Shape := ⟨5, ![4, 32, 64, 64, 128]⟩
abbrev S1x1x1x1x128 : Shape := ⟨5, ![1, 1, 1, 1, 128]⟩
abbrev S_ : Shape := ⟨0, ![]⟩
abbrev S4x32x64x256 : Shape := ⟨4, ![4, 32, 64, 256]⟩
abbrev S1x1x1x128 : Shape := ⟨4, ![1, 1, 1, 128]⟩

abbrev nBuf : Space → Nat
  | .hbm => 30
  | .vmem => 0
  | .smem => 0
  | _ => 0

abbrev bufTy : (tb : Table) → Fin (tcTables nBuf tb) → BufTy
  | .hbm, ⟨0, _⟩ => ⟨S4x32x64x128, .f32⟩
  | .hbm, ⟨1, _⟩ => ⟨S128x256, .f32⟩
  | .hbm, ⟨2, _⟩ => ⟨S128, .f32⟩
  | .hbm, ⟨3, _⟩ => ⟨S128x256, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S4x32x64x128, .f32⟩
  | .hbm, ⟨8, _⟩ => ⟨S4x32x64x128, .f32⟩
  | .hbm, ⟨9, _⟩ => ⟨S4x32x64x1x128, .f32⟩
  | .hbm, ⟨10, _⟩ => ⟨S4x32x1x64x128, .f32⟩
  | .hbm, ⟨11, _⟩ => ⟨S4x32x64x64x128, .f32⟩
  | .hbm, ⟨12, _⟩ => ⟨S4x32x64x64x128, .f32⟩
  | .hbm, ⟨13, _⟩ => ⟨S4x32x64x64x128, .f32⟩
  | .hbm, ⟨14, _⟩ => ⟨S1x1x1x1x128, .f32⟩
  | .hbm, ⟨15, _⟩ => ⟨S4x32x64x64x128, .f32⟩
  | .hbm, ⟨16, _⟩ => ⟨S4x32x64x64x128, .f32⟩
  | .hbm, ⟨17, _⟩ => ⟨S_, .f32⟩
  | .hbm, ⟨18, _⟩ => ⟨S4x32x64x64x128, .f32⟩
  | .hbm, ⟨19, _⟩ => ⟨S4x32x64x64x128, .f32⟩
  | .hbm, ⟨20, _⟩ => ⟨S_, .f32⟩
  | .hbm, ⟨21, _⟩ => ⟨S4x32x64x128, .f32⟩
  | .hbm, ⟨22, _⟩ => ⟨S4x32x64x256, .f32⟩
  | .hbm, ⟨23, _⟩ => ⟨S4x32x64x128, .f32⟩
  | .hbm, ⟨24, _⟩ => ⟨S1x1x1x128, .f32⟩
  | .hbm, ⟨25, _⟩ => ⟨S4x32x64x128, .f32⟩
  | .hbm, ⟨26, _⟩ => ⟨S4x32x64x128, .f32⟩
  | .hbm, ⟨27, _⟩ => ⟨S_, .f32⟩
  | .hbm, ⟨28, _⟩ => ⟨S4x32x64x128, .f32⟩
  | .hbm, ⟨29, _⟩ => ⟨S4x32x64x128, .f32⟩
  | _, _ => ⟨S4x32x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call1_cst : Ref sig .tc := ⟨.hbm, 27, rfl⟩
abbrev main_call1_v0 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  slices_S128x256_S128x128_0_0 : S128x256.Slices ![0, 0] S128x128
  slices_S128x256_S128x128_0_128 : S128x256.Slices ![0, 128] S128x128
  bcast_S4x32x64x128_S4x32x64x1x128_0_1_2_4 : S4x32x64x128.BroadcastsInDim S4x32x64x1x128 (![0, 1, 2, 4] : Fin 4 → Fin S4x32x64x1x128.rank)
  bcast_S4x32x64x128_S4x32x1x64x128_0_1_3_4 : S4x32x64x128.BroadcastsInDim S4x32x1x64x128 (![0, 1, 3, 4] : Fin 4 → Fin S4x32x1x64x128.rank)
  bcast_S4x32x64x1x128_S4x32x64x64x128_0_1_2_3_4 : S4x32x64x1x128.BroadcastsInDim S4x32x64x64x128 (![0, 1, 2, 3, 4] : Fin 5 → Fin S4x32x64x64x128.rank)
  bcast_S4x32x1x64x128_S4x32x64x64x128_0_1_2_3_4 : S4x32x1x64x128.BroadcastsInDim S4x32x64x64x128 (![0, 1, 2, 3, 4] : Fin 5 → Fin S4x32x64x64x128.rank)
  bcast_S128_S1x1x1x1x128_4 : S128.BroadcastsInDim S1x1x1x1x128 (![4] : Fin 1 → Fin S1x1x1x1x128.rank)
  bcast_S1x1x1x1x128_S4x32x64x64x128_0_1_2_3_4 : S1x1x1x1x128.BroadcastsInDim S4x32x64x64x128 (![0, 1, 2, 3, 4] : Fin 5 → Fin S4x32x64x64x128.rank)
  bcast_S_S4x32x64x64x128 : S_.BroadcastsInDim S4x32x64x64x128 (![] : Fin 0 → Fin S4x32x64x64x128.rank)
  reducesTo_S4x32x64x64x128_S4x32x64x128_d3 : S4x32x64x64x128.ReducesTo [3] S4x32x64x128
  h_S_ : 0 < S_.numel
  concatenates_S4x32x64x128_S4x32x64x128_S4x32x64x256_d3 : Shape.Concatenates [S4x32x64x128, S4x32x64x128] S4x32x64x256 3
  bcast_S128_S1x1x1x128_3 : S128.BroadcastsInDim S1x1x1x128 (![3] : Fin 1 → Fin S1x1x1x128.rank)
  bcast_S1x1x1x128_S4x32x64x128_0_1_2_3 : S1x1x1x128.BroadcastsInDim S4x32x64x128 (![0, 1, 2, 3] : Fin 4 → Fin S4x32x64x128.rank)
  bcast_S_S4x32x64x128 : S_.BroadcastsInDim S4x32x64x128 (![] : Fin 0 → Fin S4x32x64x128.rank)
  dot_S4x32x64x128_S128x128_S4x32x64x128_3_1_012_0_n_n_wf : DotDims.WF S4x32x64x128 S128x128 S4x32x64x128 [3] [1] [0, 1, 2] [0] [] []
  dot_S4x32x64x256_S128x256_S4x32x64x128_3_1_012_0_n_n_wf : DotDims.WF S4x32x64x256 S128x256 S4x32x64x128 [3] [1] [0, 1, 2] [0] [] []

variable [Facts₀]

def dot_S4x32x64x128_S128x128_S4x32x64x128_3_1_012_0_n_n : DotDims S4x32x64x128 S128x128 S4x32x64x128 where
  lhsContracting := [3]
  rhsContracting := [1]
  lhsNonContracting := [0, 1, 2]
  rhsNonContracting := [0]
  lhsBatch := []
  rhsBatch := []
  wf := dot_S4x32x64x128_S128x128_S4x32x64x128_3_1_012_0_n_n_wf
def dot_S4x32x64x256_S128x256_S4x32x64x128_3_1_012_0_n_n : DotDims S4x32x64x256 S128x256 S4x32x64x128 where
  lhsContracting := [3]
  rhsContracting := [1]
  lhsNonContracting := [0, 1, 2]
  rhsNonContracting := [0]
  lhsBatch := []
  rhsBatch := []
  wf := dot_S4x32x64x256_S128x256_S4x32x64x128_3_1_012_0_n_n_wf

class Facts : Prop extends Facts₀ where

variable [Facts]
-- ==== Proof.Layout.lean ====
/-
  The re-arrangements the kernel's body makes of one block of 8 graphs, each read at coordinates.

  A block is [8, 64, 128]: graph, node, channel.  The body flattens graph and node into one row axis of 512 for the
  matrix products (row g·64 + n) and unflattens the products; it spreads a [128] bias over all rows; it cuts 16 target
  nodes out of the 64; it lays targets and sources on two different axes of an [8, 16, 64, 128] edge array (a unit axis
  inserted, then broadcast) and sums that array over the source axis.  Each lemma says which entry of the operand an
  entry of the result is; none depends on the element type.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.GnnLayout

open Idealize.ShloMosaic Idealize.ShloMosaic.ValueIdx

variable {α : Type}

/-- Row g·64 + n of the flattened [512, 128] block is node n of graph g. -/
theorem flatten_apply (x : (⟨3, ![8, 64, 128]⟩ : Shape).Idx → α)
    (h : (⟨3, ![8, 64, 128]⟩ : Shape).ShapeCasts ⟨2, ![512, 128]⟩) (g : Fin 8) (n : Fin 64) (f : Fin 128) (p : Fin 512)
    (hp : p.val = g.val * 64 + n.val) :
    shapeCast ⟨2, ![512, 128]⟩ x h (ix2 p f) = x (ix3 g n f) :=
  shapeCast_apply x h _ _ (by
    rw [Shape.rowMajor_val_three, Shape.rowMajor_val_two]
    show (g.val * 64 + n.val) * 128 + f.val = p.val * 128 + f.val
    rw [hp])

/-- Node n of graph g of the unflattened [8, 64, 128] result is row g·64 + n. -/
theorem unflatten_apply (y : (⟨2, ![512, 128]⟩ : Shape).Idx → α)
    (h : (⟨2, ![512, 128]⟩ : Shape).ShapeCasts ⟨3, ![8, 64, 128]⟩) (g : Fin 8) (n : Fin 64) (o : Fin 128) (p : Fin 512)
    (hp : p.val = g.val * 64 + n.val) :
    shapeCast ⟨3, ![8, 64, 128]⟩ y h (ix3 g n o) = y (ix2 p o) :=
  shapeCast_apply y h _ _ (by
    rw [Shape.rowMajor_val_three, Shape.rowMajor_val_two]
    show p.val * 128 + o.val = (g.val * 64 + n.val) * 128 + o.val
    rw [hp])

/-- A [128] bias viewed [1, 1, 128] and spread over a block: entry (g, n, o) is the bias at o. -/
theorem bias_block_apply (v : (⟨1, ![128]⟩ : Shape).Idx → α)
    (h₁ : (⟨1, ![128]⟩ : Shape).ShapeCasts ⟨3, ![1, 1, 128]⟩)
    (h₂ : (⟨3, ![1, 1, 128]⟩ : Shape).Broadcasts ⟨3, ![8, 64, 128]⟩) (g : Fin 8) (n : Fin 64) (o : Fin 128) :
    broadcastTo ⟨3, ![8, 64, 128]⟩ (shapeCast ⟨3, ![1, 1, 128]⟩ v h₁) h₂ (ix3 g n o) = v (ix1 o) := by
  refine (broadcastTo_apply _ h₂ (ix3 g n o) (ix3 (0 : Fin 1) (0 : Fin 1) o) fun a => ?_).trans ?_
  · match a with
    | ⟨0, _⟩ => rfl
    | ⟨1, _⟩ => rfl
    | ⟨2, _⟩ => rfl
  · exact shapeCast_apply v h₁ _ _ (by
      rw [Shape.rowMajor_val_three, Shape.rowMajor_val_one]
      show o.val = (0 * 1 + 0) * 128 + o.val
      omega)

/-- A [128] bias viewed [1, 128] and spread over the 512 rows: entry (p, o) is the bias at o. -/
theorem bias_rows_apply (v : (⟨1, ![128]⟩ : Shape).Idx → α)
    (h₁ : (⟨1, ![128]⟩ : Shape).ShapeCasts ⟨2, ![1, 128]⟩)
    (h₂ : (⟨2, ![1, 128]⟩ : Shape).Broadcasts ⟨2, ![512, 128]⟩) (p : Fin 512) (o : Fin 128) :
    broadcastTo ⟨2, ![512, 128]⟩ (shapeCast ⟨2, ![1, 128]⟩ v h₁) h₂ (ix2 p o) = v (ix1 o) :=
  (broadcastTo_1b_ab_apply _ h₂ p o).trans (shapeCast_a_1a_apply v h₁ 0 o)

/-- Targets on the second axis of the edge array: a [8, 16, 128] chunk viewed [8, 16, 1, 128] and spread over the 64
    sources reads, at (g, i, j, o), the chunk at (g, i, o). -/
theorem targets_apply (x : (⟨3, ![8, 16, 128]⟩ : Shape).Idx → α)
    (h₁ : (⟨3, ![8, 16, 128]⟩ : Shape).ShapeCasts ⟨4, ![8, 16, 1, 128]⟩)
    (h₂ : (⟨4, ![8, 16, 1, 128]⟩ : Shape).Broadcasts ⟨4, ![8, 16, 64, 128]⟩)
    (g : Fin 8) (i : Fin 16) (j : Fin 64) (o : Fin 128) :
    broadcastTo ⟨4, ![8, 16, 64, 128]⟩ (shapeCast ⟨4, ![8, 16, 1, 128]⟩ x h₁) h₂ (ix4 g i j o) = x (ix3 g i o) := by
  refine (broadcastTo_apply _ h₂ (ix4 g i j o) (ix4 g i (0 : Fin 1) o) fun a => ?_).trans ?_
  · match a with
    | ⟨0, _⟩ => rfl
    | ⟨1, _⟩ => rfl
    | ⟨2, _⟩ => rfl
    | ⟨3, _⟩ => rfl
  · exact shapeCast_apply x h₁ _ _ (by
      rw [Shape.rowMajor_val_three, Shape.rowMajor_val_four]
      show (g.val * 16 + i.val) * 128 + o.val = ((g.val * 16 + i.val) * 1 + 0) * 128 + o.val
      omega)

/-- Sources on the third axis: a [8, 64, 128] block viewed [8, 1, 64, 128] and spread over the 16 targets reads, at
    (g, i, j, o), the block at (g, j, o). -/
theorem sources_apply (x : (⟨3, ![8, 64, 128]⟩ : Shape).Idx → α)
    (h₁ : (⟨3, ![8, 64, 128]⟩ : Shape).ShapeCasts ⟨4, ![8, 1, 64, 128]⟩)
    (h₂ : (⟨4, ![8, 1, 64, 128]⟩ : Shape).Broadcasts ⟨4, ![8, 16, 64, 128]⟩)
    (g : Fin 8) (i : Fin 16) (j : Fin 64) (o : Fin 128) :
    broadcastTo ⟨4, ![8, 16, 64, 128]⟩ (shapeCast ⟨4, ![8, 1, 64, 128]⟩ x h₁) h₂ (ix4 g i j o) = x (ix3 g j o) := by
  refine (broadcastTo_apply _ h₂ (ix4 g i j o) (ix4 g (0 : Fin 1) j o) fun a => ?_).trans ?_
  · match a with
    | ⟨0, _⟩ => rfl
    | ⟨1, _⟩ => rfl
    | ⟨2, _⟩ => rfl
    | ⟨3, _⟩ => rfl
  · exact shapeCast_apply x h₁ _ _ (by
      rw [Shape.rowMajor_val_three, Shape.rowMajor_val_four]
      show (g.val * 64 + j.val) * 128 + o.val = ((g.val * 1 + 0) * 64 + j.val) * 128 + o.val
      omega)

/-- The edge array summed over its source axis from the neutral accumulator, on the extended reals: entry (g, i, o) is
    the sum over the 64 sources j of the array at (g, i, j, o). -/
theorem sourceSum_apply (src : FVec Ideal ⟨4, ![8, 16, 64, 128]⟩ .f32) (acc : BitVec 32)
    (h : (⟨4, ![8, 16, 64, 128]⟩ : Shape).Reduces [2] ⟨3, ![8, 16, 128]⟩) (hφ : FKind.Formats .f32)
    (hacc : acc = FKind.add.neutral .f32 hφ) (g : Fin 8) (i : Fin 16) (o : Fin 128) :
    multiReduction .add [2] ⟨3, ![8, 16, 128]⟩ src acc h hφ hacc (ix3 g i o) = ∑ j : Fin 64, src (ix4 g i j o) :=
  (Ideal.multiReduction_add_single src acc h hφ hacc (ix3 g i o)).trans
    (Finset.sum_congr rfl fun j _ => congrArg src (funext fun a => Fin.ext (by
      match a with
      | ⟨0, _⟩ => rfl
      | ⟨1, _⟩ => rfl
      | ⟨2, _⟩ => rfl
      | ⟨3, _⟩ => rfl)))

end Cert.GnnLayout

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.Body.lean ====
/-
  The kernel body's arithmetic on one block of 8 graphs, entry by entry, on the extended reals.
-/
import proofs.«115815_j83150566851123_2_alg».proof.Proof.Gen.KernelIdeal.Skeleton
import proofs.«115815_j83150566851123_2_alg».proof.Proof.Layout
import proofs.«115815_j83150566851123_2_alg».proof.Proof.LibPlainMatmul
import Idealize.ShloMosaic.Lib.IdealHost

noncomputable section

open scoped BigOperators

namespace Cert.GnnBody

open Idealize.ShloMosaic Idealize.ShloMosaic.ValueIdx
open Cert.KernelIdeal Cert.KernelIdeal.Gen
open Cert.GnnLayout Cert.Lib.PlainMatmul

/-- The row of the flattened block that holds node `n` of graph `g`. -/
abbrev row (g : Fin 8) (n : Fin 64) : Fin 512 := ⟨g.val * 64 + n.val, by have := g.isLt; have := n.isLt; omega⟩

/-- A block's rows against a weight matrix's rows: the product of the flattened block with the transposed matrix,
    unflattened, at (g, n, o), is the sum over the features f of block(g, n, f) · weight(o, f). -/
theorem proj_apply (x0 : FVec Ideal S8x64x128 .bf16) (w : FVec Ideal S128x128 .bf16)
    (h₁ : S8x64x128.ShapeCasts S512x128) (h₂ : S128x128.Transposes [1, 0] S128x128) (h₃ : S512x128.ShapeCasts S8x64x128)
    (g : Fin 8) (n : Fin 64) (o : Fin 128) :
    shapeCast S8x64x128 (matmul dot_S512x128_S128x128_S512x128_1_0_0_1_n_n none (shapeCast S512x128 x0 h₁)
        (transpose S128x128 [1, 0] w h₂) (constant S512x128 .f32 0x00000000#32)) h₃ (ix3 g n o)
      = ∑ f : Fin 128, x0 (ix3 g n f) * w (ix2 o f) :=
  (unflatten_apply _ h₃ g n o (row g n) rfl).trans
    ((plain_matmul_zero_apply (M := 512) (K := 128) (N := 128) _ _ (row g n) o).trans
      (Finset.sum_congr rfl fun f _ => congrArg₂ (· * ·) (flatten_apply x0 h₁ g n f (row g n) rfl)
        (transpose_ix2_apply w h₂ f o)))

/-- The target-side projection with the edge bias folded in: at (g, n, o), Σ_f block(g, n, f) · W1(o, f) + be(o). -/
theorem tgt_apply (x0 : FVec Ideal S8x64x128 .bf16) (x1 : FVec Ideal S128x128 .bf16) (x3 : FVec Ideal S128 .f32)
    (g : Fin 8) (n : Fin 64) (o : Fin 128) :
    k0_pay5 (F := Ideal) x0 x1 x3 (ix3 g n o) = (∑ f : Fin 128, x0 (ix3 g n f) * x1 (ix2 o f)) + x3 (ix1 o) := by
  unfold k0_pay5 k0_pay4
  refine congrArg₂ (· + ·) ((proj_apply _ _ _ _ _ g n o).trans ?_) (bias_block_apply x3 _ _ g n o)
  simp only [shapeCast_self]

/-- The source-side projection: at (g, n, o), Σ_f block(g, n, f) · W2(o, f). -/
theorem src_apply (x0 : FVec Ideal S8x64x128 .bf16) (x2 : FVec Ideal S128x128 .bf16)
    (g : Fin 8) (n : Fin 64) (o : Fin 128) :
    k0_pay6 (F := Ideal) x0 x2 (ix3 g n o) = ∑ f : Fin 128, x0 (ix3 g n f) * x2 (ix2 o f) := by
  unfold k0_pay6 k0_pay4
  refine (proj_apply _ _ _ _ _ g n o).trans ?_
  simp only [shapeCast_self]

/-- One chunk of 16 targets against all 64 sources: the rectified sums of a target's and a source's projections, summed
    over the sources. -/
def edgeChunk (tg : FVec Ideal S8x16x128 .bf16) (v23 : FVec Ideal S8x64x128 .bf16) : FVec Ideal S8x16x128 .f32 :=
  shapeCast S8x16x128 (multiReduction .add [2] S8x16x128
    (extf .f32 (maximumf (addf (broadcastTo S8x16x64x128 (shapeCast S8x16x1x128 tg shapeCasts_S8x16x128_S8x16x1x128) broadcasts_S8x16x1x128_S8x16x64x128)
        (broadcastTo S8x16x64x128 (shapeCast S8x1x64x128 v23 shapeCasts_S8x64x128_S8x1x64x128) broadcasts_S8x1x64x128_S8x16x64x128))
      (broadcast S8x16x64x128 (Scalar.ofBits .bf16 0x0000#16))) bitsLt_bf16_f32)
    0x00000000#32 reduces_S8x16x64x128_S8x16x128 (.inl rfl) rfl) shapeCasts_S8x16x128_S8x16x128

/-- Entry (g, i, o) of a chunk: Σ_j max (target(g, i, o) + source(g, j, o)) 0. -/
theorem edgeChunk_apply (tg : FVec Ideal S8x16x128 .bf16) (v23 : FVec Ideal S8x64x128 .bf16)
    (g : Fin 8) (i : Fin 16) (o : Fin 128) :
    edgeChunk tg v23 (ix3 g i o) = ∑ j : Fin 64, max (tg (ix3 g i o) + v23 (ix3 g j o)) 0 := by
  unfold edgeChunk
  refine (congrFun (shapeCast_self _ _) _).trans ((sourceSum_apply _ _ _ _ _ g i o).trans
    (Finset.sum_congr rfl fun j _ => ?_))
  exact congrArg₂ max (congrArg₂ (· + ·) (targets_apply tg _ _ g i j o) (sources_apply v23 _ _ g i j o))
    Ideal.ofBits_zero_bf16

/-- The four chunks the body computes are this one function of a slice of the targets and of the sources. -/
theorem chunk0_eq (x0 : FVec Ideal S8x64x128 .bf16) (x1 x2 : FVec Ideal S128x128 .bf16) (x3 : FVec Ideal S128 .f32) :
    k0_pay7 (F := Ideal) x0 x1 x2 x3
      = edgeChunk (extractStridedSlice S8x16x128 ![0, 0, 0] (k0_pay5 x0 x1 x3) slices_S8x64x128_o0_0_0_S8x16x128) (k0_pay6 x0 x2) := rfl
theorem chunk1_eq (v23 : FVec Ideal S8x64x128 .bf16) (v37 : FVec Ideal S8x16x128 .bf16) :
    k0_pay9 (F := Ideal) v23 v37 = edgeChunk v37 v23 := rfl
theorem chunk2_eq (v22 v23 : FVec Ideal S8x64x128 .bf16) :
    k0_pay10 (F := Ideal) v22 v23
      = edgeChunk (extractStridedSlice S8x16x128 ![0, 32, 0] v22 slices_S8x64x128_o0_32_0_S8x16x128) v23 := rfl
theorem chunk3_eq (v22 v23 : FVec Ideal S8x64x128 .bf16) :
    k0_pay11 (F := Ideal) v22 v23
      = edgeChunk (extractStridedSlice S8x16x128 ![0, 48, 0] v22 slices_S8x64x128_o0_48_0_S8x16x128) v23 := rfl
theorem slice1_eq (x0 : FVec Ideal S8x64x128 .bf16) (x1 : FVec Ideal S128x128 .bf16) (x3 : FVec Ideal S128 .f32) :
    k0_pay8 (F := Ideal) x0 x1 x3
      = extractStridedSlice S8x16x128 ![0, 16, 0] (k0_pay5 x0 x1 x3) slices_S8x64x128_o0_16_0_S8x16x128 := rfl

/-- A chunk cut from the targets at node offset `off`: entry (g, i, o) is Σ_j max (tgt(g, off + i, o) + src(g, j, o)) 0. -/
theorem edgeChunk_slice_apply (off : ℕ) (v22 v23 : FVec Ideal S8x64x128 .bf16)
    (h : S8x64x128.Slices ![0, off, 0] S8x16x128) (g : Fin 8) (i : Fin 16) (o : Fin 128) (n : Fin 64)
    (hn : n.val = off + i.val) :
    edgeChunk (extractStridedSlice S8x16x128 ![0, off, 0] v22 h) v23 (ix3 g i o)
      = ∑ j : Fin 64, max (v22 (ix3 g n o) + v23 (ix3 g j o)) 0 :=
  (edgeChunk_apply _ v23 g i o).trans (Finset.sum_congr rfl fun j _ =>
    congrArg (fun a => max (a + v23 (ix3 g j o)) 0) (slice3_axis1_apply off v22 h g i o n hn))

/-- The node update of a block: at (g, n, o), max ((Σ_f x(g·64+n, f) · Wx(o, f) + Σ_c recv(g, n, c) · Wm(o, c)) + bn(o)) 0,
    with `x` the flattened block and `recv` the scratch read back. -/
theorem upd_apply (v8 v10 : FVec Ideal S128x128 .bf16) (v11 : FVec Ideal S128 .f32) (v12 : FVec Ideal S512x128 .bf16)
    (v76 : FVec Ideal S8x64x128 .f32) (g : Fin 8) (n : Fin 64) (o : Fin 128) :
    k0_pay1 (F := Ideal) v8 v10 v11 v12 v76 (ix3 g n o)
      = max ((∑ f : Fin 128, v12 (ix2 (row g n) f) * v8 (ix2 o f) + ∑ c : Fin 128, v76 (ix3 g n c) * v10 (ix2 o c))
          + v11 (ix1 o)) 0 := by
  unfold k0_pay1
  refine (unflatten_apply _ _ g n o (row g n) rfl).trans
    (congrArg₂ max (congrArg₂ (· + ·) (congrArg₂ (· + ·) ?_ ?_) (bias_rows_apply v11 _ _ (row g n) o))
      Ideal.ofBits_zero_f32)
  · exact (plain_matmul_zero_apply (M := 512) (K := 128) (N := 128) _ _ (row g n) o).trans
      (Finset.sum_congr rfl fun f _ => congrArg (v12 (ix2 (row g n) f) * ·) (transpose_ix2_apply v8 _ f o))
  · exact (plain_matmul_zero_apply (M := 512) (K := 128) (N := 128) _ _ (row g n) o).trans
      (Finset.sum_congr rfl fun c _ => congrArg₂ (· * ·)
        (flatten_apply (truncf .bf16 v76 bitsLt_bf16_f32) _ g n c (row g n) rfl) (transpose_ix2_apply v10 _ c o))

end Cert.GnnBody

end
-- ==== Proof.Pieces.lean ====
/-
  What one run of the body leaves in the output block, as a value.

  The body writes the received-message sums into a scratch block in four pieces of 16 target nodes each, reads the
  scratch back whole, and stores the output block once, whole.  So the output block is the node update applied to the
  loaded blocks and to the scratch as the four pieces left it.
-/
import proofs.«115815_j83150566851123_2_alg».proof.Proof.Gen.KernelIdeal.Frame
import Idealize.ShloMosaic.Lib.Pipeline.Value
import Idealize.ShloMosaic.Lib.Tactic

set_option maxRecDepth 16384

noncomputable section

namespace Cert.GnnPieces

open Idealize.ShloMosaic Idealize.ShloMosaic.TcCoe Idealize.ShloMosaic.Tactic Idealize.SL.Sem
open Cert.KernelIdeal Cert.KernelIdeal.Gen

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The four stores into the scratch block, last first: target nodes 48–63, 32–47, 16–31, 0–15, each with the
    received-message sums of its 16 targets. -/
def scratchPieces (x0 : Vec F S8x64x128 .bf16) (x1 x2 : Vec F S128x128 .bf16) (x3 : Vec F S128 .f32) :
    List (View.Piece (Elt F) S8x64x128 .f32) :=
  [⟨Rect.unit ![0, 48, 0] S8x16x128.size inb_S8x64x128_S8x16x128_0_48_0, k0_pay11 (k0_pay5 x0 x1 x3) (k0_pay6 x0 x2)⟩,
   ⟨Rect.unit ![0, 32, 0] S8x16x128.size inb_S8x64x128_S8x16x128_0_32_0, k0_pay10 (k0_pay5 x0 x1 x3) (k0_pay6 x0 x2)⟩,
   ⟨Rect.unit ![0, 16, 0] S8x16x128.size inb_S8x64x128_S8x16x128_0_16_0, k0_pay9 (k0_pay6 x0 x2) (k0_pay8 x0 x1 x3)⟩,
   ⟨Rect.unit ![0, 0, 0] S8x16x128.size inb_S8x64x128_S8x16x128_0_0_0, k0_pay7 x0 x1 x2 x3⟩]

/-- The scratch block read back whole after the four stores. -/
def scratch (x0 : Vec F S8x64x128 .bf16) (x1 x2 : Vec F S128x128 .bf16) (x3 : Vec F S128 .f32) : Vec F S8x64x128 .f32 :=
  fun j => View.canon (scratchPieces x0 x1 x2 x3)
    ((Rect.unit (s := S8x64x128) ![0, 0, 0] S8x64x128.size inb_S8x64x128_S8x64x128_0_0_0).toLoadRect.idx j)

/-- The output block after the body: the node update of the loaded blocks and the scratch read back. -/
theorem out_eq (c : Dev nD) (i : grid0.Coords) (arg1 : Memref sig .tc .vmem S8x64x128 .bf16) (harg1 : arg1.IsWhole) (arg2 : Memref sig .tc .vmem S128x128 .bf16) (harg2 : arg2.IsWhole) (arg3 : Memref sig .tc .vmem S128x128 .bf16) (harg3 : arg3.IsWhole) (arg4 : Memref sig .tc .vmem S128 .f32) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128 .f32) (harg7 : arg7.IsWhole) (arg8 : Memref sig .tc .vmem S8x64x128 .f32) (harg8 : arg8.IsWhole) (arg9 : Memref sig .tc .vmem S8x64x128 .f32) (harg9 : arg9.IsWhole)
    (x0 : Vec F S8x64x128 .bf16) (x1 : Vec F S128x128 .bf16) (x2 : Vec F S128x128 .bf16) (x3 : Vec F S128 .f32) (x4 : Vec F S128x128 .bf16) (x5 : Vec F S128x128 .bf16) (x6 : Vec F S128 .f32) :
    out0_A_7 c i arg1 harg1 arg2 harg2 arg3 harg3 arg4 harg4 arg5 harg5 arg6 harg6 arg7 harg7 arg8 harg8 arg9 harg9 x0 x1 x2 x3 x4 x5 x6
      = k0_pay1 (k0_pay2 x4) (k0_pay3 x5) x6 (k0_pay4 x0) (scratch x0 x1 x2 x3) := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5 x6)]
  unfold kernelRun0_A
  dsimp only
  sl_unfold_words
  rw [View.canon_unit_zero zeros3]
  simp only [View.readAt_eq_ld, harg1.read_unread, harg2.read_unread, harg3.read_unread, harg4.read_unread,
    harg5.read_unread, harg6.read_unread, harg7.read_unread, View.ld_unit_zero (S := S8x64x128) zeros3,
    View.ld_unit_zero (S := S128x128) zeros2, View.ld_unit_zero (S := S128) zeros1, View.readCov_eq_canon']
  rfl

end Cert.GnnPieces

end
-- ==== Proof.Spec.lean ====
/-
  One message-passing layer over a batch of small graphs, as ONE function of its five argument arrays, on the
  extended reals.

  A graph has 64 nodes with 128 features each.  With `We = [W1 | W2]` and `Wn = [Wx | Wm]` (each half 128 columns wide):

    p(n, o)   = Σ_f x(n, f) · W1(o, f)                 the node's projection as a message's TARGET
    q(n, o)   = Σ_f x(n, f) · W2(o, f)                 the node's projection as a message's SOURCE
    s(i, o)   = Σ_j max (p(i, o) + q(j, o) + be(o)) 0   what node i receives, summed over all 64 sources j
    out(n, o) = max ((Σ_f x(n, f) · Wx(o, f) + Σ_c s(n, c) · Wm(o, c)) + bn(o)) 0

  The graphs are independent: graph (b, l) of the [4, 32, 64, 128] input gives rows (b, l, ·, ·) of the result.
  The two small laws below are all the algebra the two programs differ by: where the bias `be` enters a three-term
  sum (commutativity and associativity of + on the extended reals, which hold at the infinities too), and a sum over
  256 joined columns split into its two halves of 128.
-/
import Idealize.ShloMosaic.PureOps.Ideal
import Idealize.ShloMosaic.Lib.ValueIdx

noncomputable section

open scoped BigOperators

namespace Cert.GnnSpec

open Idealize.ShloMosaic Idealize.ShloMosaic.ValueIdx

/-- Column `f` of the first half of a 256-column weight matrix. -/
abbrev lo (f : Fin 128) : Fin 256 := ⟨f.val, by have := f.isLt; omega⟩
/-- Column `f` of the second half. -/
abbrev hi (f : Fin 128) : Fin 256 := ⟨128 + f.val, by have := f.isLt; omega⟩

/-- A [128, 256] weight matrix and a [128] bias, as functions of coordinates. -/
abbrev Wt := (⟨2, ![128, 256]⟩ : Shape).Idx → EReal
abbrev Bs := (⟨1, ![128]⟩ : Shape).Idx → EReal

/-- One graph's features: node, feature. -/
abbrev Gr := Fin 64 → Fin 128 → EReal

/-- Node `n`'s projection on the first half of the edge weights. -/
def projT (xg : Gr) (We : Wt) (n : Fin 64) (o : Fin 128) : EReal := ∑ f : Fin 128, xg n f * We (ix2 o (lo f))

/-- Node `n`'s projection on the second half of the edge weights. -/
def projS (xg : Gr) (We : Wt) (n : Fin 64) (o : Fin 128) : EReal := ∑ f : Fin 128, xg n f * We (ix2 o (hi f))

/-- What node `i` receives on channel `o`: the rectified edge values summed over the sources. -/
def recv (xg : Gr) (We : Wt) (be : Bs) (i : Fin 64) (o : Fin 128) : EReal :=
  ∑ j : Fin 64, max (projT xg We i o + projS xg We j o + be (ix1 o)) 0

/-- The node update of one graph. -/
def node (xg : Gr) (We : Wt) (be : Bs) (Wn : Wt) (bn : Bs) (n : Fin 64) (o : Fin 128) : EReal :=
  max ((∑ f : Fin 128, xg n f * Wn (ix2 o (lo f)) + ∑ c : Fin 128, recv xg We be n c * Wn (ix2 o (hi c))) + bn (ix1 o)) 0

/-- The layer on the whole [4, 32, 64, 128] input: graph (b, l) is updated on its own. -/
def layer (x : (⟨4, ![4, 32, 64, 128]⟩ : Shape).Idx → EReal) (We : Wt) (be : Bs) (Wn : Wt) (bn : Bs) :
    (⟨4, ![4, 32, 64, 128]⟩ : Shape).Idx → EReal :=
  fun i => node (fun n f => x (ix4 (i 0) (i 1) n f)) We be Wn bn (i 2) (i 3)

/-- The layer on the input with its two batch axes flattened, [128, 64, 128]: graph `r` is updated on its own. -/
def layerFlat (x : (⟨3, ![128, 64, 128]⟩ : Shape).Idx → EReal) (We : Wt) (be : Bs) (Wn : Wt) (bn : Bs) :
    (⟨3, ![128, 64, 128]⟩ : Shape).Idx → EReal :=
  fun i => node (fun n f => x (ix3 (i 0) n f)) We be Wn bn (i 1) (i 2)

/-- Where the bias enters the edge sum does not matter: + on the extended reals is commutative and associative. -/
theorem bias_last (a b c : EReal) : (a + c) + b = a + b + c := add_right_comm a c b

/-- The node update of one graph with the four weight halves and the two biases given apart, and the edge bias added
    to the target's projection before the source's is. -/
def nodeK (xg : Gr) (w1 w2 wx wm : Fin 128 → Fin 128 → EReal) (be bn : Fin 128 → EReal) (n : Fin 64) (o : Fin 128) : EReal :=
  max ((∑ f : Fin 128, xg n f * wx o f
      + ∑ c : Fin 128, (∑ j : Fin 64, max ((∑ f : Fin 128, xg n f * w1 c f + be c) + ∑ f : Fin 128, xg j f * w2 c f) 0) * wm o c)
    + bn o) 0

/-- The node update depends on its arguments only through their values. -/
theorem nodeK_congr {xg xg' : Gr} {w1 w1' w2 w2' wx wx' wm wm' : Fin 128 → Fin 128 → EReal} {be be' bn bn' : Fin 128 → EReal}
    (h0 : ∀ n f, xg n f = xg' n f) (h1 : ∀ c f, w1 c f = w1' c f) (h2 : ∀ c f, w2 c f = w2' c f)
    (h4 : ∀ o f, wx o f = wx' o f) (h5 : ∀ o c, wm o c = wm' o c) (h3 : ∀ c, be c = be' c) (h6 : ∀ o, bn o = bn' o)
    (n : Fin 64) (o : Fin 128) : nodeK xg w1 w2 wx wm be bn n o = nodeK xg' w1' w2' wx' wm' be' bn' n o := by
  obtain rfl : xg = xg' := funext fun n => funext fun f => h0 n f
  obtain rfl : w1 = w1' := funext fun c => funext fun f => h1 c f
  obtain rfl : w2 = w2' := funext fun c => funext fun f => h2 c f
  obtain rfl : wx = wx' := funext fun o => funext fun f => h4 o f
  obtain rfl : wm = wm' := funext fun o => funext fun c => h5 o c
  obtain rfl : be = be' := funext h3
  obtain rfl : bn = bn' := funext h6
  rfl

/-- It is the node update: only the place of the edge bias in a three-term sum differs. -/
theorem node_eq_nodeK (xg : Gr) (We : Wt) (be : Bs) (Wn : Wt) (bn : Bs) (n : Fin 64) (o : Fin 128) :
    node xg We be Wn bn n o
      = nodeK xg (fun c f => We (ix2 c (lo f))) (fun c f => We (ix2 c (hi f))) (fun o f => Wn (ix2 o (lo f)))
          (fun o c => Wn (ix2 o (hi c))) (fun c => be (ix1 c)) (fun o => bn (ix1 o)) n o := by
  unfold node nodeK
  refine congrArg (fun s => max ((_ + s) + _) 0) (Finset.sum_congr rfl fun c _ => congrArg (· * _) ?_)
  unfold recv projT projS
  exact Finset.sum_congr rfl fun j _ => congrArg (max · 0) (bias_last _ _ _).symm

/-- A sum over 256 joined columns is the sum over the first 128 plus the sum over the last 128. -/
theorem sum_halves (g : Fin 256 → EReal) : ∑ c : Fin 256, g c = ∑ f : Fin 128, g (lo f) + ∑ f : Fin 128, g (hi f) :=
  Fin.sum_univ_add (a := 128) (b := 128) (fun c : Fin (128 + 128) => g c)

end Cert.GnnSpec

end
-- ==== Proof.Block.lean ====
/-
  One grid point's output block as the node update of its input blocks, entry by entry, on the extended reals.
-/
import proofs.«115815_j83150566851123_2_alg».proof.Proof.Body
import proofs.«115815_j83150566851123_2_alg».proof.Proof.Pieces
import proofs.«115815_j83150566851123_2_alg».proof.Proof.Spec

set_option maxRecDepth 16384

noncomputable section

open scoped BigOperators

namespace Cert.GnnBlock

open Idealize.ShloMosaic Idealize.ShloMosaic.ValueIdx
open Cert.KernelIdeal Cert.KernelIdeal.Gen
open Cert.GnnLayout Cert.GnnBody Cert.GnnPieces Cert.GnnSpec

variable (x0 : FVec Ideal S8x64x128 .bf16) (x1 x2 : FVec Ideal S128x128 .bf16) (x3 : FVec Ideal S128 .f32)
  (x4 x5 : FVec Ideal S128x128 .bf16) (x6 : FVec Ideal S128 .f32)

/-- What target node n of graph g receives on channel c, from the block's own projections. -/
def recvAt (g : Fin 8) (n : Fin 64) (c : Fin 128) : EReal :=
  ∑ j : Fin 64, max (k0_pay5 (F := Ideal) x0 x1 x3 (ix3 g n c) + k0_pay6 (F := Ideal) x0 x2 (ix3 g j c)) 0

/-- The same as a function of the block index. -/
def recvBlk : S8x64x128.Idx → EReal := fun j => recvAt x0 x1 x2 x3 (j 0) (j 1) (j 2)

/-- A chunk stored at node offset `off` holds, at its local index, the received sums of the node it lands on. -/
theorem piece_ok (off : ℕ) (h : S8x64x128.Slices ![0, off, 0] S8x16x128)
    (inb : ∀ a, (![0, off, 0] : Fin 3 → ℕ) a + S8x16x128.size a ≤ S8x64x128.size a) (x : S8x16x128.Idx) :
    edgeChunk (extractStridedSlice S8x16x128 ![0, off, 0] (k0_pay5 (F := Ideal) x0 x1 x3) h) (k0_pay6 (F := Ideal) x0 x2) x
      = recvBlk x0 x1 x2 x3 ((Rect.unit (s := S8x64x128) ![0, off, 0] S8x16x128.size inb).emb x) := by
  obtain ⟨g, i, o, rfl⟩ : ∃ (g : Fin 8) (i : Fin 16) (o : Fin 128), x = ix3 g i o := ⟨x 0, x 1, x 2, eq_ix3 x⟩
  have hoff : off + 16 ≤ 64 := inb 1
  refine (edgeChunk_slice_apply off _ _ h g i o ⟨off + i.val, by have := i.isLt; omega⟩ rfl).trans ?_
  have e : (Rect.unit (s := S8x64x128) ![0, off, 0] S8x16x128.size inb).emb (ix3 g i o)
      = ix3 g ⟨off + i.val, by have := i.isLt; omega⟩ o := funext fun a => Fin.ext (by
    match a with
    | ⟨0, _⟩ => show 0 + 1 * g.val = g.val; omega
    | ⟨1, _⟩ => show off + 1 * i.val = off + i.val; omega
    | ⟨2, _⟩ => show 0 + 1 * o.val = o.val; omega)
  rw [e]
  rfl

/-- Node n lies in the chunk stored at offset `off` when off ≤ n < off + 16. -/
theorem mem_chunk (off : ℕ) (inb : ∀ a, (![0, off, 0] : Fin 3 → ℕ) a + S8x16x128.size a ≤ S8x64x128.size a)
    (g : Fin 8) (n : Fin 64) (c : Fin 128) (h1 : off ≤ n.val) (h2 : n.val < off + 16) :
    ix3 g n c ∈ (Rect.unit (s := S8x64x128) ![0, off, 0] S8x16x128.size inb).set :=
  Rect.mem_set_unit.mpr fun a => by
    match a with
    | ⟨0, _⟩ => show 0 ≤ g.val ∧ g.val < 0 + 8; omega
    | ⟨1, _⟩ => show off ≤ n.val ∧ n.val < off + 16; omega
    | ⟨2, _⟩ => show 0 ≤ c.val ∧ c.val < 0 + 128; omega

/-- The scratch block read back after the four stores holds the received sums at every entry. -/
theorem scratch_apply (g : Fin 8) (n : Fin 64) (c : Fin 128) :
    scratch (F := Ideal) x0 x1 x2 x3 (ix3 g n c) = recvAt x0 x1 x2 x3 g n c := by
  unfold scratch
  have hidx : (Rect.unit (s := S8x64x128) ![0, 0, 0] S8x64x128.size inb_S8x64x128_S8x64x128_0_0_0).toLoadRect.idx (ix3 g n c)
      = ix3 g n c := funext fun a => Fin.ext (by
    match a with
    | ⟨0, _⟩ => show 0 + 1 * g.val = g.val; omega
    | ⟨1, _⟩ => show 0 + 1 * n.val = n.val; omega
    | ⟨2, _⟩ => show 0 + 1 * c.val = c.val; omega)
  rw [hidx]
  have hcov : ∃ p ∈ scratchPieces (F := Ideal) x0 x1 x2 x3, ix3 g n c ∈ p.1.set := by
    have hn := n.isLt
    unfold scratchPieces
    rcases (by omega : 48 ≤ n.val ∨ (32 ≤ n.val ∧ n.val < 48) ∨ (16 ≤ n.val ∧ n.val < 32) ∨ n.val < 16) with h | h | h | h
    · exact ⟨_, List.mem_cons_self, mem_chunk 48 inb_S8x64x128_S8x16x128_0_48_0 g n c (by omega) (by omega)⟩
    · exact ⟨_, List.mem_cons_of_mem _ List.mem_cons_self, mem_chunk 32 inb_S8x64x128_S8x16x128_0_32_0 g n c (by omega) (by omega)⟩
    · exact ⟨_, List.mem_cons_of_mem _ (List.mem_cons_of_mem _ List.mem_cons_self), mem_chunk 16 inb_S8x64x128_S8x16x128_0_16_0 g n c (by omega) (by omega)⟩
    · exact ⟨_, List.mem_cons_of_mem _ (List.mem_cons_of_mem _ (List.mem_cons_of_mem _ List.mem_cons_self)),
        mem_chunk 0 inb_S8x64x128_S8x16x128_0_0_0 g n c (by omega) (by omega)⟩
  suffices hp : ∀ p ∈ scratchPieces (F := Ideal) x0 x1 x2 x3, ∀ x : p.1.shape.Idx, p.2 x = recvBlk x0 x1 x2 x3 (p.1.emb x) from
    View.canon_apply_of_pieces (recvBlk x0 x1 x2 x3) (scratchPieces (F := Ideal) x0 x1 x2 x3) hp (ix3 g n c) hcov
  unfold scratchPieces
  refine List.forall_mem_cons.mpr ⟨fun x => ?_, List.forall_mem_cons.mpr ⟨fun x => ?_, List.forall_mem_cons.mpr
    ⟨fun x => ?_, List.forall_mem_cons.mpr ⟨fun x => ?_, fun _ h => absurd h List.not_mem_nil⟩⟩⟩⟩
  · exact (congrFun (chunk3_eq _ _) x).trans (piece_ok x0 x1 x2 x3 48 slices_S8x64x128_o0_48_0_S8x16x128 inb_S8x64x128_S8x16x128_0_48_0 x)
  · exact (congrFun (chunk2_eq _ _) x).trans (piece_ok x0 x1 x2 x3 32 slices_S8x64x128_o0_32_0_S8x16x128 inb_S8x64x128_S8x16x128_0_32_0 x)
  · exact (congrFun ((chunk1_eq _ _).trans (congrArg (edgeChunk · _) (slice1_eq x0 x1 x3))) x).trans (piece_ok x0 x1 x2 x3 16 slices_S8x64x128_o0_16_0_S8x16x128 inb_S8x64x128_S8x16x128_0_16_0 x)
  · exact (congrFun (chunk0_eq x0 x1 x2 x3) x).trans (piece_ok x0 x1 x2 x3 0 slices_S8x64x128_o0_0_0_S8x16x128 inb_S8x64x128_S8x16x128_0_0_0 x)

/-- The block the body leaves, at (g, n, o): the node update of graph g of the input block. -/
theorem block_apply (g : Fin 8) (n : Fin 64) (o : Fin 128) :
    k0_pay1 (F := Ideal) (k0_pay2 x4) (k0_pay3 x5) x6 (k0_pay4 x0) (scratch (F := Ideal) x0 x1 x2 x3) (ix3 g n o)
      = nodeK (fun n f => x0 (ix3 g n f)) (fun c f => x1 (ix2 c f)) (fun c f => x2 (ix2 c f)) (fun o f => x4 (ix2 o f))
          (fun o c => x5 (ix2 o c)) (fun c => x3 (ix1 c)) (fun o => x6 (ix1 o)) n o := by
  refine (upd_apply _ _ _ _ _ g n o).trans ?_
  unfold nodeK
  refine congrArg₂ (fun a b => max ((a + b) + _) 0) (Finset.sum_congr rfl fun f _ => congrArg₂ (· * ·) ?_ ?_)
    (Finset.sum_congr rfl fun c _ => congrArg₂ (· * ·) ?_ ?_)
  · unfold k0_pay4
    exact (flatten_apply _ _ g n f (row g n) rfl).trans (congrFun (shapeCast_self x0 _) _)
  · unfold k0_pay2
    exact congrFun (shapeCast_self x4 _) _
  · refine (scratch_apply x0 x1 x2 x3 g n c).trans ?_
    unfold recvAt
    exact Finset.sum_congr rfl fun j _ => congrArg₂ (fun a b => max (a + b) 0) (tgt_apply x0 x1 x3 g n c) (src_apply x0 x2 g j c)
  · unfold k0_pay3
    exact congrFun (shapeCast_self x5 _) _

end Cert.GnnBlock

end
-- ==== Proof.Region.lean ====
/-
  The array the region leaves: every graph of the flattened input updated on its own.

  Grid point t works on graphs 8t … 8t+7: its input block is rows 8t … 8t+7 of the flattened input, the six weight and
  bias blocks are the whole arrays at every point, and its output block is written back to rows 8t … 8t+7.  The 16
  points' blocks tile the [128, 64, 128] result, so the result is one function of the arrays the region finds.
-/
import proofs.«115815_j83150566851123_2_alg».proof.Proof.Gen.KernelIdeal.Frame
import proofs.«115815_j83150566851123_2_alg».proof.Proof.Block
import Idealize.ShloMosaic.Lib.Pipeline.Value

set_option maxRecDepth 16384

noncomputable section

open scoped BigOperators

namespace Cert.GnnRegion

open Idealize.ShloMosaic Idealize.ShloMosaic.TcCoe Idealize.SL.Sem Idealize.ShloMosaic.ValueIdx
open Idealize.ShloMosaic.Pipeline (Dat)
open Cert.KernelIdeal Cert.KernelIdeal.Gen
open Cert.GnnSpec Cert.GnnBlock Cert.GnnPieces

variable (m : (ℓ : Loc nD τ sig) → Buf (Elt Ideal) ℓ) (ρ : Dev nD → PrngReg)

/-- The arrays the region finds, as functions of coordinates. -/
abbrev Xf (c : Dev nD) : S128x64x128.Idx → EReal := V m c main_v1
abbrev W1 (c : Dev nD) : S128x128.Idx → EReal := V m c main_v3
abbrev W2 (c : Dev nD) : S128x128.Idx → EReal := V m c main_v5
abbrev Wx (c : Dev nD) : S128x128.Idx → EReal := V m c main_v7
abbrev Wm (c : Dev nD) : S128x128.Idx → EReal := V m c main_v9
abbrev Be (c : Dev nD) : S128.Idx → EReal := V m c main_arg2
abbrev Bn (c : Dev nD) : S128.Idx → EReal := V m c main_arg4

/-- The result array: graph r, node n, channel o is the node update of graph r. -/
def result (c : Dev nD) : S128x64x128.Idx → EReal := fun i =>
  nodeK (fun n f => Xf m c (ix3 (i 0) n f)) (fun k f => W1 m c (ix2 k f)) (fun k f => W2 m c (ix2 k f))
    (fun o f => Wx m c (ix2 o f)) (fun o k => Wm m c (ix2 o k)) (fun k => Be m c (ix1 k)) (fun o => Bn m c (ix1 o))
    (i 1) (i 2)

/-- The windows' block indices over the grid: the input and output blocks move together along the graph axis, every
    other block stays at the origin. -/
theorem idx_facts : ∀ t : Fin cfg0.N, win0_7.index t (0 : Fin 3) ≤ 15 ∧ win0_7.index t (1 : Fin 3) = 0
    ∧ win0_7.index t (2 : Fin 3) = 0
    ∧ win0_0.index t (0 : Fin 3) = win0_7.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0 :=
  (by decide +kernel : ∀ t : Fin grid0.N, _)

/-- Every block of 8 graphs is some point's. -/
theorem idx_onto : ∀ q : Fin 16, ∃ t : Fin cfg0.N, win0_7.index t = ![q.val, 0, 0] :=
  (by decide +kernel : ∀ q : Fin 16, ∃ t : Fin grid0.N, win0_7.index t = ![q.val, 0, 0])

/-- The input block at point t, graph g, is graph r = 8·(block index) + g of the flattened input. -/
theorem blk0_apply (c : Dev nD) (t : Fin cfg0.N) (g : Fin 8) (n : Fin 64) (f : Fin 128) (r : Fin 128)
    (hr : r.val = win0_7.index t (0 : Fin 3) * 8 + g.val) :
    (iblk m c 0 t : S8x64x128.Idx → EReal) (ix3 g n f) = Xf m c (ix3 r n f) := by
  obtain ⟨-, -, -, e0, e1, e2, -⟩ := idx_facts t
  show Xf m c (((cfg0.win 0).blk t).view.emb (ix3 g n f)) = _
  refine congrArg _ (funext fun a => Fin.ext ?_)
  match a with
  | ⟨0, _⟩ => show win0_0.index t (0 : Fin 3) * 8 + 1 * g.val = r.val; omega
  | ⟨1, _⟩ => show win0_0.index t (1 : Fin 3) * 64 + 1 * n.val = n.val; omega
  | ⟨2, _⟩ => show win0_0.index t (2 : Fin 3) * 128 + 1 * f.val = f.val; omega

theorem blk1_apply (c : Dev nD) (t : Fin cfg0.N) (k f : Fin 128) :
    (iblk m c 1 t : S128x128.Idx → EReal) (ix2 k f) = W1 m c (ix2 k f) := by
  obtain ⟨-, -, -, -, -, -, e0, e1, -⟩ := idx_facts t
  show W1 m c (((cfg0.win 1).blk t).view.emb (ix2 k f)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * f.val = f.val; omega

theorem blk2_apply (c : Dev nD) (t : Fin cfg0.N) (k f : Fin 128) :
    (iblk m c 2 t : S128x128.Idx → EReal) (ix2 k f) = W2 m c (ix2 k f) := by
  obtain ⟨-, -, -, -, -, -, -, -, e0, e1, -⟩ := idx_facts t
  show W2 m c (((cfg0.win 2).blk t).view.emb (ix2 k f)) = _
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * f.val = f.val; omega

theorem blk3_apply (c : Dev nD) (t : Fin cfg0.N) (k : Fin 128) :
    (iblk m c 3 t : S128.Idx → EReal) (ix1 k) = Be m c (ix1 k) := by
  obtain ⟨-, -, -, -, -, -, -, -, -, -, e0, -⟩ := idx_facts t
  show Be m c (((cfg0.win 3).blk t).view.emb (ix1 k)) = _
  refine congrArg _ (funext fun a => Fin.ext ?_)
  match a with
  | ⟨0, _⟩ => show win0_3.index t (0 : Fin 1) * 128 + 1 * k.val = k.val; omega

theorem blk4_apply (c : Dev nD) (t : Fin cfg0.N) (k f : Fin 128) :
    (iblk m c 4 t : S128x128.Idx → EReal) (ix2 k f) = Wx m c (ix2 k f) := by
  obtain ⟨-, -, -, -, -, -, -, -, -, -, -, e0, e1, -⟩ := idx_facts t
  show Wx m c (((cfg0.win 4).blk t).view.emb (ix2 k f)) = _
  refine congrArg _ (funext fun a => Fin.ext ?_)
  match a with
  | ⟨0, _⟩ => show win0_4.index t (0 : Fin 2) * 128 + 1 * k.val = k.val; omega
  | ⟨1, _⟩ => show win0_4.index t (1 : Fin 2) * 128 + 1 * f.val = f.val; omega

theorem blk5_apply (c : Dev nD) (t : Fin cfg0.N) (k f : Fin 128) :
    (iblk m c 5 t : S128x128.Idx → EReal) (ix2 k f) = Wm m c (ix2 k f) := by
  obtain ⟨-, -, -, -, -, -, -, -, -, -, -, -, -, e0, e1, -⟩ := idx_facts t
  show Wm m c (((cfg0.win 5).blk t).view.emb (ix2 k f)) = _
  refine congrArg _ (funext fun a => Fin.ext ?_)
  match a with
  | ⟨0, _⟩ => show win0_5.index t (0 : Fin 2) * 128 + 1 * k.val = k.val; omega
  | ⟨1, _⟩ => show win0_5.index t (1 : Fin 2) * 128 + 1 * f.val = f.val; omega

theorem blk6_apply (c : Dev nD) (t : Fin cfg0.N) (k : Fin 128) :
    (iblk m c 6 t : S128.Idx → EReal) (ix1 k) = Bn m c (ix1 k) := by
  obtain ⟨-, -, -, -, -, -, -, -, -, -, -, -, -, -, -, e0⟩ := idx_facts t
  show Bn m c (((cfg0.win 6).blk t).view.emb (ix1 k)) = _
  refine congrArg _ (funext fun a => Fin.ext ?_)
  match a with
  | ⟨0, _⟩ => show win0_6.index t (0 : Fin 1) * 128 + 1 * k.val = k.val; omega

/-- What the body leaves in the output's staging buffer at point t: the node update of the point's blocks. -/
theorem outsAt_eq (c : Dev nD) (t : Fin cfg0.N) :
    outsAt0 m c t = k0_pay1 (F := Ideal) (k0_pay2 (iblk m c 4 t)) (k0_pay3 (iblk m c 5 t)) (iblk m c 6 t) (k0_pay4 (iblk m c 0 t))
      (scratch (F := Ideal) (iblk m c 0 t) (iblk m c 1 t) (iblk m c 2 t) (iblk m c 3 t)) := by
  unfold outsAt0
  exact out_eq c (grid0.coords t) (ms0_0 t) (hs0_0 t) (ms0_1 t) (hs0_1 t) (ms0_2 t) (hs0_2 t) (ms0_3 t) (hs0_3 t)
    (ms0_4 t) (hs0_4 t) (ms0_5 t) (hs0_5 t) (ms0_6 t) (hs0_6 t) (ms0_7 t) (hs0_7 t) scM0_0 (Memref.isWhole_whole _)
    (iblk m c 0 t) (iblk m c 1 t) (iblk m c 2 t) (iblk m c 3 t) (iblk m c 4 t) (iblk m c 5 t) (iblk m c 6 t)

/-- What point t writes back is block t of the result. -/
theorem flushed_eq (c : Dev nD) (t : Fin cfg0.N) :
    (dats m 0 c).flushed 7 t = ((cfg0.win 7).blk t).view.read (Elt Ideal) (result m c) := by
  show (cfg0.win 7).cut (grid0.coords t) ((dats m 0 c).after 7 t) = _
  rw [after0_7, outsAt_eq]
  obtain ⟨b0, e1, e2, -⟩ := idx_facts t
  funext j
  obtain ⟨g, n, o, rfl⟩ : ∃ (g : Fin 8) (n : Fin 64) (o : Fin 128), j = ix3 g n o := ⟨j 0, j 1, j 2, eq_ix3 j⟩
  have hrow : win0_7.index t (0 : Fin 3) * 8 + g.val < 128 := by have := g.isLt; omega
  have hemb : ((cfg0.win 7).blk t).view.emb (ix3 g n o) = ix3 (⟨_, hrow⟩ : Fin 128) n o := funext fun a => Fin.ext (by
    match a with
    | ⟨0, _⟩ => show win0_7.index t (0 : Fin 3) * 8 + 1 * g.val = win0_7.index t (0 : Fin 3) * 8 + g.val; omega
    | ⟨1, _⟩ => show win0_7.index t (1 : Fin 3) * 64 + 1 * n.val = n.val; omega
    | ⟨2, _⟩ => show win0_7.index t (2 : Fin 3) * 128 + 1 * o.val = o.val; omega)
  show k0_pay1 (F := Ideal) (k0_pay2 (iblk m c 4 t)) (k0_pay3 (iblk m c 5 t)) (iblk m c 6 t) (k0_pay4 (iblk m c 0 t))
      (scratch (F := Ideal) (iblk m c 0 t) (iblk m c 1 t) (iblk m c 2 t) (iblk m c 3 t)) (ix3 g n o)
    = result m c (((cfg0.win 7).blk t).view.emb (ix3 g n o))
  rw [hemb]
  refine (block_apply (iblk m c 0 t) (iblk m c 1 t) (iblk m c 2 t) (iblk m c 3 t) (iblk m c 4 t) (iblk m c 5 t)
    (iblk m c 6 t) g n o).trans ?_
  exact nodeK_congr (fun n f => blk0_apply m c t g n f ⟨_, hrow⟩ rfl) (fun k f => blk1_apply m c t k f)
    (fun k f => blk2_apply m c t k f) (fun k f => blk4_apply m c t k f) (fun k f => blk5_apply m c t k f)
    (fun k => blk3_apply m c t k) (fun k => blk6_apply m c t k) n o

/-- An index of the result is in point t's block iff each coordinate is in the block's range on its axis. -/
theorem mem_blk (t : Fin cfg0.N) (i : S128x64x128.Idx) :
    i ∈ ((cfg0.win 7).blk t).view.set ↔ ∀ a : Fin 3, win0_7.index t a * S8x64x128.size a ≤ (i a).val
      ∧ (i a).val < win0_7.index t a * S8x64x128.size a + S8x64x128.size a := by
  show i ∈ ((View.whole main_v10).slice (win0_7.rect t)).set ↔ _
  rw [View.set_slice_whole, Rect.mem_set_unit]
  exact Iff.rfl

/-- Graph r of the result is written back by the point whose block holds it. -/
theorem cover (i : S128x64x128.Idx) :
    ∃ t : Fin cfg0.N, (cfg0.win 7).flush t = true ∧ i ∈ ((cfg0.win 7).blk t).view.set := by
  have hi0 : (i 0).val < 128 := (i 0).isLt
  have hi1 : (i 1).val < 64 := (i 1).isLt
  have hi2 : (i 2).val < 128 := (i 2).isLt
  obtain ⟨t, ht⟩ := idx_onto ⟨(i 0).val / 8, by omega⟩
  have q0 : win0_7.index t (0 : Fin 3) = (i 0).val / 8 := congrFun ht 0
  have q1 : win0_7.index t (1 : Fin 3) = 0 := congrFun ht 1
  have q2 : win0_7.index t (2 : Fin 3) = 0 := congrFun ht 2
  refine ⟨t, flush0_7 t, ?_⟩
  rw [mem_blk]
  intro a
  match a with
  | ⟨0, _⟩ => show win0_7.index t (0 : Fin 3) * 8 ≤ (i 0).val ∧ (i 0).val < win0_7.index t (0 : Fin 3) * 8 + 8; omega
  | ⟨1, _⟩ => show win0_7.index t (1 : Fin 3) * 64 ≤ (i 1).val ∧ (i 1).val < win0_7.index t (1 : Fin 3) * 64 + 64; omega
  | ⟨2, _⟩ => show win0_7.index t (2 : Fin 3) * 128 ≤ (i 2).val ∧ (i 2).val < win0_7.index t (2 : Fin 3) * 128 + 128; omega

/-- The array after the region. -/
theorem final (c : Dev nD) : (dats m 0 c).arrAt 7 cfg0.N = result m c :=
  (dats m 0 c).arrAt_eq_of_cover 7 (result m c) (fun t _ => flushed_eq m c t) (cover)

end Cert.GnnRegion

end
-- ==== Proof.Host.lean ====
/-
  What the region finds in the arrays the host computes before it: the input with its two batch axes flattened into
  one axis of 128 graphs, and the four 128-column halves of the two weight matrices (each only changed in float format,
  which is the identity on the extended reals).
-/
import proofs.«115815_j83150566851123_2_alg».proof.Proof.Gen.KernelIdeal.Frame.Runs
import Idealize.ShloMosaic.Lib.StableHlo.Run
import Idealize.ShloMosaic.Lib.Pipeline.Value

noncomputable section

namespace Cert.GnnHost

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

/-- The flattened input, in the matrix unit's format. -/
theorem V_x (c : Dev nD) : (V m c main_v1 : S128x64x128.Idx → Elt F .bf16)
    = truncf .bf16 (fun i => shapeCast S128x64x128 (m ((c : Thread nD τ).loc main_arg0)) shapeCasts_S4x32x64x128_S128x64x128 i) bitsLt_bf16_f32 := by
  show StableHlo.after hostOps0 (fun b => m (c, b)) (Proc.devRef .tc main_v1) = _
  after_results
  rfl

/-- The first half of the edge weights. -/
theorem V_w1 (c : Dev nD) : (V m c main_v3 : S128x128.Idx → Elt F .bf16)
    = truncf .bf16 (extractStridedSlice S128x128 ![0, 0] (m ((c : Thread nD τ).loc main_arg1)) slices_S128x256_S128x128_0_0) bitsLt_bf16_f32 := by
  show StableHlo.after hostOps0 (fun b => m (c, b)) (Proc.devRef .tc main_v3) = _
  after_results

/-- The second half of the edge weights. -/
theorem V_w2 (c : Dev nD) : (V m c main_v5 : S128x128.Idx → Elt F .bf16)
    = truncf .bf16 (extractStridedSlice S128x128 ![0, 128] (m ((c : Thread nD τ).loc main_arg1)) slices_S128x256_S128x128_0_128) bitsLt_bf16_f32 := by
  show StableHlo.after hostOps0 (fun b => m (c, b)) (Proc.devRef .tc main_v5) = _
  after_results

/-- The first half of the node weights. -/
theorem V_wx (c : Dev nD) : (V m c main_v7 : S128x128.Idx → Elt F .bf16)
    = truncf .bf16 (extractStridedSlice S128x128 ![0, 0] (m ((c : Thread nD τ).loc main_arg3)) slices_S128x256_S128x128_0_0) bitsLt_bf16_f32 := by
  show StableHlo.after hostOps0 (fun b => m (c, b)) (Proc.devRef .tc main_v7) = _
  after_results

/-- The second half of the node weights. -/
theorem V_wm (c : Dev nD) : (V m c main_v9 : S128x128.Idx → Elt F .bf16)
    = truncf .bf16 (extractStridedSlice S128x128 ![0, 128] (m ((c : Thread nD τ).loc main_arg3)) slices_S128x256_S128x128_0_128) bitsLt_bf16_f32 := by
  show StableHlo.after hostOps0 (fun b => m (c, b)) (Proc.devRef .tc main_v9) = _
  after_results

end Cert.GnnHost

end
-- ==== Proof.KernelRun.lean ====
/-
  The kernel program's run, read: its result is the layer of its five arguments.

  The region's result array is the layer on the input with the two batch axes flattened (graph r = 32·b + l); the host
  unflattens it afterwards.  Flattening the input, updating every graph on its own and unflattening the result is
  updating every graph (b, l) on its own.
-/
import proofs.«115815_j83150566851123_2_alg».proof.Proof.Region
import proofs.«115815_j83150566851123_2_alg».proof.Proof.Host
import Idealize.ShloMosaic.Lib.ValueLayout

set_option maxRecDepth 16384

noncomputable section

open scoped BigOperators

namespace Cert.GnnKernel

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen
open Cert.GnnSpec Cert.GnnRegion Cert.GnnHost

variable (m : (ℓ : Loc nD τ sig) → Buf (Elt Ideal) ℓ) (ρ : Dev nD → PrngReg)

/-- The input with its two batch axes flattened. -/
def flatX (c : Dev nD) : S128x64x128.Idx → EReal :=
  fun i => shapeCast S128x64x128 (m ((c : Thread nD τ).loc main_arg0)) shapeCasts_S4x32x64x128_S128x64x128 i

/-- The region's result is the layer on the flattened input and the four argument arrays. -/
theorem result_eq (c : Dev nD) : result m c
    = layerFlat (flatX m c) (m ((c : Thread nD τ).loc main_arg1)) (m ((c : Thread nD τ).loc main_arg2))
        (m ((c : Thread nD τ).loc main_arg3)) (m ((c : Thread nD τ).loc main_arg4)) := by
  funext i
  obtain ⟨r, n, o, rfl⟩ : ∃ (r : Fin 128) (n : Fin 64) (o : Fin 128), i = ix3 r n o := ⟨i 0, i 1, i 2, eq_ix3 i⟩
  unfold result layerFlat
  refine Eq.trans ?_ (node_eq_nodeK _ _ _ _ _ n o).symm
  refine nodeK_congr (fun n f => congrFun (V_x m c) _) (fun k f => ?_) (fun k f => ?_) (fun k f => ?_) (fun k f => ?_)
    (fun k => congrFun (V_main_arg2 m c) _) (fun k => congrFun (V_main_arg4 m c) _) n o
  · exact (congrFun (V_w1 m c) _).trans (slice2_axis1_apply 0 (m ((c : Thread nD τ).loc main_arg1)) slices_S128x256_S128x128_0_0 k f (lo f) (by show f.val = 0 + f.val; omega))
  · exact (congrFun (V_w2 m c) _).trans (slice2_axis1_apply 128 (m ((c : Thread nD τ).loc main_arg1)) slices_S128x256_S128x128_0_128 k f (hi f) rfl)
  · exact (congrFun (V_wx m c) _).trans (slice2_axis1_apply 0 (m ((c : Thread nD τ).loc main_arg3)) slices_S128x256_S128x128_0_0 k f (lo f) (by show f.val = 0 + f.val; omega))
  · exact (congrFun (V_wm m c) _).trans (slice2_axis1_apply 128 (m ((c : Thread nD τ).loc main_arg3)) slices_S128x256_S128x128_0_128 k f (hi f) rfl)

/-- Flattening the batch axes, updating every graph on its own and unflattening is updating every graph (b, l) on its
    own: graph 32·b + l of the flattened input is graph (b, l). -/
theorem unflat_layer (x : S4x32x64x128.Idx → EReal) (We : Wt) (be : Bs) (Wn : Wt) (bn : Bs)
    (hx : S4x32x64x128.ShapeCasts S128x64x128) (hy : S128x64x128.ShapeCasts S4x32x64x128) :
    (fun i => shapeCast S4x32x64x128 (layerFlat (fun j => shapeCast S128x64x128 x hx j) We be Wn bn) hy i)
      = layer x We be Wn bn := by
  funext i
  obtain ⟨b, l, n, o, rfl⟩ : ∃ (b : Fin 4) (l : Fin 32) (n : Fin 64) (o : Fin 128), i = ix4 b l n o :=
    ⟨i 0, i 1, i 2, i 3, eq_ix4 i⟩
  have hr : b.val * 32 + l.val < 128 := by have := b.isLt; have := l.isLt; omega
  refine (shapeCast_apply _ hy (ix4 b l n o) (ix3 (⟨b.val * 32 + l.val, hr⟩ : Fin 128) n o) (by
    rw [Shape.rowMajor_val_three, Shape.rowMajor_val_four]; rfl)).trans ?_
  unfold layerFlat layer
  refine congrArg (fun xg => node xg We be Wn bn n o) (funext fun n' => funext fun f => ?_)
  exact shapeCast_apply x hx (ix3 (⟨b.val * 32 + l.val, hr⟩ : Fin 128) n' f) (ix4 b l n' f) (by
    rw [Shape.rowMajor_val_three, Shape.rowMajor_val_four]; rfl)

/-- The host line after the region unflattens the region's result. -/
theorem tail_eq (c : Dev nD) :
    Pipeline.afterTail₀ cfgs (dats m) 0 (V0 m) [hostOps1] c main_v11
      = fun i => shapeCast S4x32x64x128 (result m c) shapeCasts_S128x64x128_S4x32x64x128 i := by
  unfold Pipeline.afterTail₀
  show StableHlo.after hostOps1 _ (Proc.devRef .tc main_v11) = _
  after_results
  have e : Pipeline.withArrays (cfgs 0).spec c (V0 m c) (fun w => (dats m 0 c).arrAt w (cfgs 0).N) (Proc.devRef .tc main_v10)
      = result m c := (Pipeline.withArrays_arr spec0 launch0.win.arr_inj c _ _ 7).trans (final m c)
  rw [e]
  rfl

/-- THE KERNEL PROGRAM'S RUN: every weakly fair execution terminates with the result at the layer of the five arguments
    and the arguments unchanged. -/
theorem run : θ_run defs (onTc (τ := τ) (main (F := Ideal))) ⟨m, fun _ => 0, ρ⟩ fun r => ∀ c : Dev nD,
      r.2.mem ((c.tc : Thread nD τ).loc main_v11)
        = layer (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨(((h c).2 main_v11 (Pipeline.mem_restRefs_of main_v11 (by decide) (by decide))).trans (tail_eq m c)).trans
        ((congrArg (fun A : S128x64x128.Idx → EReal => fun i => shapeCast S4x32x64x128 A shapeCasts_S128x64x128_S4x32x64x128 i)
          (result_eq m c)).trans (unflat_layer _ _ _ _ _ _ _)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).1 6).trans (((dats m 0 c).arrAt_in 6 rfl _).trans ((A_eq m c 6).trans (V_main_arg4 m c)))⟩)
    (run_main m ρ)

end Cert.GnnKernel

end
-- ==== Proof.Ref.lean ====
/-
  The reference program's result is the layer, entry by entry, on the extended reals.

  The reference projects the whole input on the two halves of the edge weights, lays targets and sources on two axes of a
  [4, 32, 64, 64, 128] edge array, adds the edge bias last, rectifies, sums over the sources, joins the input and these sums
  along the channel axis, and applies the node weights to the joined 256 channels in one contraction.  Read at
  (b, l, n, o) each stage is a function of graph (b, l) alone; the one contraction over 256 channels splits into the two
  sums over 128 the layer is stated with.
-/
import proofs.«115815_j83150566851123_2_alg».proof.Proof.Gen.ReferenceIdeal.Read
import proofs.«115815_j83150566851123_2_alg».proof.Proof.Spec
import Idealize.ShloMosaic.Lib.Pipeline.Value

noncomputable section

open scoped BigOperators

namespace Cert.GnnRef

open Idealize.ShloMosaic Idealize.ShloMosaic.ValueIdx
open Cert.ReferenceIdeal Cert.ReferenceIdeal.Gen Cert.ReferenceIdeal.Read
open Cert.GnnSpec

variable (x0 : FVec Ideal S4x32x64x128 .f32) (x1 : FVec Ideal S128x256 .f32) (x2 : FVec Ideal S128 .f32)
  (x3 : FVec Ideal S128x256 .f32) (x4 : FVec Ideal S128 .f32)

/-- Graph (b, l) of the input. -/
abbrev gr (b : Fin 4) (l : Fin 32) : Gr := fun n f => x0 (ix4 b l n f)

/-- The projection on the first half of the edge weights, at (b, l, n, c). -/
theorem projT_apply (b : Fin 4) (l : Fin 32) (n : Fin 64) (c : Fin 128) :
    val_main_v2 (F := Ideal) x0 x1 (ix4 b l n c) = projT (gr x0 b l) x1 n c :=
  (val_main_v2_apply x0 x1 (ix4 b l n c)).trans (Finset.sum_congr rfl fun f _ => congrArg₂ (· * ·)
    (congrArg x0 (funext fun a => Fin.ext (by
      match a with
      | ⟨0, _⟩ => rfl
      | ⟨1, _⟩ => rfl
      | ⟨2, _⟩ => rfl
      | ⟨3, _⟩ => rfl)))
    ((val_main_v0_apply (F := Ideal) x1 _).trans (congrArg x1 (funext fun a => Fin.ext (by
      match a with
      | ⟨0, _⟩ => rfl
      | ⟨1, _⟩ => rfl)))))

/-- The projection on the second half of the edge weights, at (b, l, n, c). -/
theorem projS_apply (b : Fin 4) (l : Fin 32) (n : Fin 64) (c : Fin 128) :
    val_main_v3 (F := Ideal) x0 x1 (ix4 b l n c) = projS (gr x0 b l) x1 n c :=
  (val_main_v3_apply x0 x1 (ix4 b l n c)).trans (Finset.sum_congr rfl fun f _ => congrArg₂ (· * ·)
    (congrArg x0 (funext fun a => Fin.ext (by
      match a with
      | ⟨0, _⟩ => rfl
      | ⟨1, _⟩ => rfl
      | ⟨2, _⟩ => rfl
      | ⟨3, _⟩ => rfl)))
    ((val_main_v1_apply (F := Ideal) x1 _).trans (congrArg x1 (funext fun a => Fin.ext (by
      match a with
      | ⟨0, _⟩ => rfl
      | ⟨1, _⟩ => rfl)))))

/-- The rectified edge value of target n and source j, at channel c. -/
theorem edge_apply (b : Fin 4) (l : Fin 32) (n j : Fin 64) (c : Fin 128) :
    val_main_v12 (F := Ideal) x0 x1 x2 (ix5 b l n j c)
      = max (projT (gr x0 b l) x1 n c + projS (gr x0 b l) x1 j c + x2 (ix1 c)) 0 := by
  have h6 : val_main_v6 (F := Ideal) x0 x1 (ix5 b l n j c) = projT (gr x0 b l) x1 n c :=
    (val_main_v6_apply (F := Ideal) x0 x1 _).trans ((val_main_v4_apply (F := Ideal) x0 x1 _).trans
      ((congrArg (val_main_v2 (F := Ideal) x0 x1) (funext fun a => Fin.ext (by
        match a with
        | ⟨0, _⟩ => rfl
        | ⟨1, _⟩ => rfl
        | ⟨2, _⟩ => rfl
        | ⟨3, _⟩ => rfl))).trans (projT_apply x0 x1 b l n c)))
  have h7 : val_main_v7 (F := Ideal) x0 x1 (ix5 b l n j c) = projS (gr x0 b l) x1 j c :=
    (val_main_v7_apply (F := Ideal) x0 x1 _).trans ((val_main_v5_apply (F := Ideal) x0 x1 _).trans
      ((congrArg (val_main_v3 (F := Ideal) x0 x1) (funext fun a => Fin.ext (by
        match a with
        | ⟨0, _⟩ => rfl
        | ⟨1, _⟩ => rfl
        | ⟨2, _⟩ => rfl
        | ⟨3, _⟩ => rfl))).trans (projS_apply x0 x1 b l j c)))
  have h10 : val_main_v10 (F := Ideal) x2 (ix5 b l n j c) = x2 (ix1 c) :=
    (val_main_v10_apply (F := Ideal) x2 _).trans ((val_main_v9_apply (F := Ideal) x2 _).trans (congrArg x2 (funext fun a => Fin.ext (by
      match a with
      | ⟨0, _⟩ => rfl))))
  have h0 : val_main_call0_v0 (F := Ideal) (ix5 b l n j c) = 0 :=
    (val_main_call0_v0_apply (F := Ideal) _).trans Ideal.ofBits_zero_f32
  exact congrArg₂ max (congrArg₂ (· + ·) (congrArg₂ (· + ·) h6 h7) h10) h0

/-- What target n receives on channel c. -/
theorem recv_apply (b : Fin 4) (l : Fin 32) (n : Fin 64) (c : Fin 128) :
    val_main_v13 (F := Ideal) x0 x1 x2 (ix4 b l n c) = recv (gr x0 b l) x1 x2 n c := by
  refine (val_main_v13_apply x0 x1 x2 _).trans ((congrArg₂ (· + ·) Ideal.ofBits_zero_f32
    (Finset.sum_congr rfl fun j _ => ?_)).trans (zero_add _))
  exact (congrArg (val_main_v12 (F := Ideal) x0 x1 x2) (funext fun a => Fin.ext (by
    match a with
    | ⟨0, _⟩ => rfl
    | ⟨1, _⟩ => rfl
    | ⟨2, _⟩ => rfl
    | ⟨3, _⟩ => rfl
    | ⟨4, _⟩ => rfl))).trans (edge_apply x0 x1 x2 b l n j c)

/-- The first 128 joined channels are the input's features. -/
theorem joined_lo (b : Fin 4) (l : Fin 32) (n : Fin 64) (f : Fin 128) :
    val_main_v14 (F := Ideal) x0 x1 x2 (ix4 b l n (lo f)) = x0 (ix4 b l n f) := by
  unfold val_main_v14
  exact concatenate_pair_apply_left (3 : Fin 4) x0 (val_main_v13 (F := Ideal) x0 x1 x2) _ (ix4 b l n (lo f)) rfl (ix4 b l n f)
    (fun a => by
      match a with
      | ⟨0, _⟩ => rfl
      | ⟨1, _⟩ => rfl
      | ⟨2, _⟩ => rfl
      | ⟨3, _⟩ => rfl)

/-- The last 128 joined channels are the received sums. -/
theorem joined_hi (b : Fin 4) (l : Fin 32) (n : Fin 64) (c : Fin 128) :
    val_main_v14 (F := Ideal) x0 x1 x2 (ix4 b l n (hi c)) = recv (gr x0 b l) x1 x2 n c := by
  unfold val_main_v14
  exact (concatenate_pair_apply_right (3 : Fin 4) x0 (val_main_v13 (F := Ideal) x0 x1 x2) _ (ix4 b l n (hi c)) rfl rfl (ix4 b l n c)
    (fun a ha => by
      match a with
      | ⟨0, _⟩ => rfl
      | ⟨1, _⟩ => rfl
      | ⟨2, _⟩ => rfl
      | ⟨3, _⟩ => exact absurd rfl ha)
    (by show c.val + 128 = 128 + c.val; omega)).trans (recv_apply x0 x1 x2 b l n c)

/-- The reference's result is the layer. -/
theorem ref_eq : val_main_v19 (F := Ideal) x0 x1 x2 x3 x4 = layer x0 x1 x2 x3 x4 := by
  funext i
  obtain ⟨b, l, n, o, rfl⟩ : ∃ (b : Fin 4) (l : Fin 32) (n : Fin 64) (o : Fin 128), i = ix4 b l n o :=
    ⟨i 0, i 1, i 2, i 3, eq_ix4 i⟩
  have h15 : val_main_v15 (F := Ideal) x0 x1 x2 x3 (ix4 b l n o)
      = ∑ f : Fin 128, gr x0 b l n f * x3 (ix2 o (lo f)) + ∑ c : Fin 128, recv (gr x0 b l) x1 x2 n c * x3 (ix2 o (hi c)) := by
    refine (val_main_v15_apply x0 x1 x2 x3 _).trans ((sum_halves _).trans (congrArg₂ (· + ·)
      (Finset.sum_congr rfl fun f _ => congrArg₂ (· * ·) ?_ ?_) (Finset.sum_congr rfl fun c _ => congrArg₂ (· * ·) ?_ ?_)))
    · exact (congrArg (val_main_v14 (F := Ideal) x0 x1 x2) (funext fun a => Fin.ext (by
        match a with
        | ⟨0, _⟩ => rfl
        | ⟨1, _⟩ => rfl
        | ⟨2, _⟩ => rfl
        | ⟨3, _⟩ => rfl))).trans (joined_lo x0 x1 x2 b l n f)
    · exact congrArg x3 (funext fun a => Fin.ext (by
        match a with
        | ⟨0, _⟩ => rfl
        | ⟨1, _⟩ => rfl))
    · exact (congrArg (val_main_v14 (F := Ideal) x0 x1 x2) (funext fun a => Fin.ext (by
        match a with
        | ⟨0, _⟩ => rfl
        | ⟨1, _⟩ => rfl
        | ⟨2, _⟩ => rfl
        | ⟨3, _⟩ => rfl))).trans (joined_hi x0 x1 x2 b l n c)
    · exact congrArg x3 (funext fun a => Fin.ext (by
        match a with
        | ⟨0, _⟩ => rfl
        | ⟨1, _⟩ => rfl))
  have h17 : val_main_v17 (F := Ideal) x4 (ix4 b l n o) = x4 (ix1 o) :=
    (val_main_v17_apply (F := Ideal) x4 _).trans ((val_main_v16_apply (F := Ideal) x4 _).trans (congrArg x4 (funext fun a => Fin.ext (by
      match a with
      | ⟨0, _⟩ => rfl))))
  have h0 : val_main_call1_v0 (F := Ideal) (ix4 b l n o) = 0 :=
    (val_main_call1_v0_apply (F := Ideal) _).trans Ideal.ofBits_zero_f32
  exact congrArg₂ max (congrArg₂ (· + ·) h15 h17) h0

end Cert.GnnRef

end
-- ==== Proof.lean ====
/-
  A message-passing layer over 128 independent graphs of 64 nodes (input [4, 32, 64, 128], weights [128, 256] twice,
  biases [128] twice): a tiled kernel against a plain array program, equal on the extended reals.

  Both compute, for every graph, out(n, o) = max ((Σ_f x(n, f)·Wx(o, f) + Σ_c s(n, c)·Wm(o, c)) + bn(o)) 0 with
  s(i, c) = Σ_j max (p(i, c) + q(j, c) + be(c)) 0 the rectified edge values summed over the sources, p and q the node's
  projections on the two halves of the edge weights (Proof/Spec.lean: `layer`).

  The kernel flattens the batch axes, works on 8 graphs per grid point, adds the edge bias to the target's projection
  before the source's (the reference adds it last), builds the edge values for 16 targets at a time into a scratch
  block, and applies the node weights as two products of 128 channels each (the reference joins features and received
  sums into 256 channels and contracts once).  On the extended reals the two differ by the commutativity and
  associativity of + and by splitting one sum over 256 terms into two over 128: no finiteness is used, so the
  precondition is never opened.  Changes of float format are the identity there, and the ideal pass rewrote nothing
  (`preserves` is `True`).

  Modules: Spec (the layer, the two laws) · Layout, LibPlainMatmul, Body (the body's operations read at coordinates) ·
  Pieces, Block (what one run of the body leaves, from the frame run's pieces) · Host, Region, KernelRun (the arrays the
  region finds, its result array, the host line after it) · Ref (the reference's stages read at coordinates).
-/
import proofs.«115815_j83150566851123_2_alg».proof.Defs
import proofs.«115815_j83150566851123_2_alg».proof.Proof.Gen.Kernel
import proofs.«115815_j83150566851123_2_alg».proof.Proof.Gen.Kernel.Frame
import proofs.«115815_j83150566851123_2_alg».proof.Proof.Gen.KernelIdeal
import proofs.«115815_j83150566851123_2_alg».proof.Proof.Gen.KernelIdeal.Frame
import proofs.«115815_j83150566851123_2_alg».proof.Proof.Gen.ReferenceIdeal
import proofs.«115815_j83150566851123_2_alg».proof.Proof.Gen.Pre_finite_inputs
import proofs.«115815_j83150566851123_2_alg».proof.Proof.Gen.ReferenceIdeal.Run
import proofs.«115815_j83150566851123_2_alg».proof.Proof.Gen.ReferenceIdeal.Read
import proofs.«115815_j83150566851123_2_alg».proof.Proof.KernelRun
import proofs.«115815_j83150566851123_2_alg».proof.Proof.Ref
import Idealize.ShloMosaic.Adequacy
import Idealize.ShloMosaic.Init

noncomputable section

namespace Cert.Proof

open Idealize.ShloMosaic Idealize.ShloMosaic.TcCoe Idealize.SL.Sem

/-- Every execution of the word-level kernel program terminates without a fault and leaves its arguments unchanged. -/
theorem frame_k : Cert.frame_Kernel := fun m ρ _ => Cert.Kernel.Gen.frame m ρ

/-- The same for the kernel program read on the extended reals. -/
theorem frame_ki : Cert.frame_KernelIdeal := fun m ρ _ => Cert.KernelIdeal.Gen.frame m ρ

/-- The same for the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the five arguments both programs end with the layer of those arguments. -/
theorem algebraic : Cert.algebraic_KernelIdeal_ReferenceIdeal := by
  intro m ρ m' ρ' _ hagree
  refine ⟨_, Cert.GnnKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.GnnRef.ref_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
